-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is two stretches of host operations and two pallas_calls in turn. The buffer contents at the four boundaries are a
  fold from the launch memory: after the first stretch, after the first call (its output array at what the call's
  write-backs leave), after the second stretch, after the second call. Every weakly fair execution terminates with every
  buffer that outlives the calls at the last boundary's contents; the arguments there are as launched, and the result
  buffer is read off the same last boundary instead of being forgotten.
-/
import proofs.«122597_j26336739459482_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    boundary gives it and every argument array as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«122597_j26336739459482_1_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.LibSageSpec.lean ====
/-
  The dense stages of a SAGE graph network (mean-aggregating layers, a mean-pooled two-layer head), as whole-array
  functions on extended reals, generic in the sizes: the layer `combine`, the head `head`, their congruence lemmas for
  reading a row block against the whole arrays, and the three-layer `network` over abstract aggregation and pooling maps.

  One SAGE layer maps node features X (R rows) and their mean-aggregated neighbour features A to
      combine A X Wl Wr b = relu (A · Wl + X · Wr + b),
  the bias b added to every row. The head maps pooled features P to
      head P W1 b1 W2 b2 = relu (P · W1 + b1) · W2 + b2.
  Sums of extended reals may be regrouped and reordered freely (addition is commutative and associative on the extended
  reals, infinities included), which is all that distinguishes the two ways the layer is written:
      (A · Wl + X · Wr) + b   and   (A · Wl + b) + X · Wr.
  The zero of the rectifier is the all-zero 32-bit word read at the ideal values; it is never evaluated.
-/
import proofs.«122597_j26336739459482_1_alg».proof.Proof.LibDenseSpec
import proofs.«122597_j26336739459482_1_alg».proof.Proof.LibBiasRow

noncomputable section

namespace Cert.Sage

open Idealize.ShloMosaic Idealize.ShloMosaic.ValueIdx Cert.Gcn

variable {R K N M : ℕ}

/-- One SAGE layer: `relu (A · Wl + X · Wr + b)`, entry by entry. -/
def combine (A X : FVec Ideal ⟨2, ![R, K]⟩ .f32) (Wl Wr : FVec Ideal ⟨2, ![K, N]⟩ .f32) (b : FVec Ideal ⟨1, ![N]⟩ .f32) :
    FVec Ideal ⟨2, ![R, N]⟩ .f32 :=
  fun i => max (linear A Wl i + linear X Wr i + b (ix1 (i 1))) (Ideal.ofBits .f32 0x00000000#32)

theorem combine_ix2 (A X : FVec Ideal ⟨2, ![R, K]⟩ .f32) (Wl Wr : FVec Ideal ⟨2, ![K, N]⟩ .f32) (b : FVec Ideal ⟨1, ![N]⟩ .f32)
    (r : Fin R) (c : Fin N) :
    combine A X Wl Wr b (ix2 r c)
      = max ((∑ k : Fin K, A (ix2 r k) * Wl (ix2 k c)) + (∑ k : Fin K, X (ix2 r k) * Wr (ix2 k c)) + b (ix1 c))
          (Ideal.ofBits .f32 0x00000000#32) := rfl

/-- The layer written with the bias added before the second product is the same function. -/
theorem combine_bias_first (A X : FVec Ideal ⟨2, ![R, K]⟩ .f32) (Wl Wr : FVec Ideal ⟨2, ![K, N]⟩ .f32) (b : FVec Ideal ⟨1, ![N]⟩ .f32)
    (r : Fin R) (c : Fin N) :
    max ((∑ k : Fin K, A (ix2 r k) * Wl (ix2 k c)) + b (ix1 c) + (∑ k : Fin K, X (ix2 r k) * Wr (ix2 k c)))
        (Ideal.ofBits .f32 0x00000000#32)
      = combine A X Wl Wr b (ix2 r c) := by
  rw [combine_ix2, add_right_comm]

/-- A row block of the layer is the layer of the whole arrays at the block's rows: when row `j 0` of the blocks `a`, `x`
    is row `i 0` of the arrays `A`, `X`, the weights and the bias are the same and the column is the same, the block's
    entry at `j` is the arrays' entry at `i`. -/
theorem combine_of_rows {Rb : ℕ} (A X : FVec Ideal ⟨2, ![R, K]⟩ .f32) (a x : FVec Ideal ⟨2, ![Rb, K]⟩ .f32)
    (Wl Wr wl wr : FVec Ideal ⟨2, ![K, N]⟩ .f32) (b b' : FVec Ideal ⟨1, ![N]⟩ .f32)
    (j : (⟨2, ![Rb, N]⟩ : Shape).Idx) (i : (⟨2, ![R, N]⟩ : Shape).Idx)
    (ha : ∀ k : Fin K, a (ix2 (j 0) k) = A (ix2 (i 0) k)) (hx : ∀ k : Fin K, x (ix2 (j 0) k) = X (ix2 (i 0) k))
    (hwl : wl = Wl) (hwr : wr = Wr) (hb : b' = b) (hc : (j 1).val = (i 1).val) :
    combine a x wl wr b' j = combine A X Wl Wr b i := by
  subst hwl hwr hb
  have hc' : j 1 = i 1 := Fin.ext hc
  unfold combine linear
  simp only [ha, hx, hc']

/-- The head: `relu (P · W1 + b1) · W2 + b2`, entry by entry. -/
def head (P : FVec Ideal ⟨2, ![R, K]⟩ .f32) (W1 : FVec Ideal ⟨2, ![K, N]⟩ .f32) (b1 : FVec Ideal ⟨1, ![N]⟩ .f32)
    (W2 : FVec Ideal ⟨2, ![N, M]⟩ .f32) (b2 : FVec Ideal ⟨1, ![M]⟩ .f32) : FVec Ideal ⟨2, ![R, M]⟩ .f32 :=
  addBias (linear (biasRelu (linear P W1) b1) W2) b2

theorem head_ix2 (P : FVec Ideal ⟨2, ![R, K]⟩ .f32) (W1 : FVec Ideal ⟨2, ![K, N]⟩ .f32) (b1 : FVec Ideal ⟨1, ![N]⟩ .f32)
    (W2 : FVec Ideal ⟨2, ![N, M]⟩ .f32) (b2 : FVec Ideal ⟨1, ![M]⟩ .f32) (r : Fin R) (c : Fin M) :
    head P W1 b1 W2 b2 (ix2 r c)
      = (∑ n : Fin N, max ((∑ k : Fin K, P (ix2 r k) * W1 (ix2 k n)) + b1 (ix1 n)) (Ideal.ofBits .f32 0x00000000#32) * W2 (ix2 n c))
          + b2 (ix1 c) := rfl

/-- The head at equal arguments. -/
theorem head_congr {p P : FVec Ideal ⟨2, ![R, K]⟩ .f32} {w1 W1 : FVec Ideal ⟨2, ![K, N]⟩ .f32} {b1 B1 : FVec Ideal ⟨1, ![N]⟩ .f32}
    {w2 W2 : FVec Ideal ⟨2, ![N, M]⟩ .f32} {b2 B2 : FVec Ideal ⟨1, ![M]⟩ .f32} {j i : (⟨2, ![R, M]⟩ : Shape).Idx}
    (hp : p = P) (h1 : w1 = W1) (hb1 : b1 = B1) (h2 : w2 = W2) (hb2 : b2 = B2) (hj : j = i) :
    head p w1 b1 w2 b2 j = head P W1 B1 W2 B2 i := by
  subst hp h1 hb1 h2 hb2 hj
  rfl

/-- One layer applied to features `h` whose neighbour aggregate is `agg h`. -/
def layerStep (agg : FVec Ideal ⟨2, ![R, K]⟩ .f32 → FVec Ideal ⟨2, ![R, K]⟩ .f32) (h : FVec Ideal ⟨2, ![R, K]⟩ .f32)
    (Wl Wr : FVec Ideal ⟨2, ![K, K]⟩ .f32) (b : FVec Ideal ⟨1, ![K]⟩ .f32) : FVec Ideal ⟨2, ![R, K]⟩ .f32 :=
  combine (agg h) h Wl Wr b

/-- The whole network: three layers over one neighbour-aggregation map `agg`, a pooling map `pool` onto `G` graphs,
    and the head. The weights are taken already transposed (input index first). -/
def network {G : ℕ} (agg : FVec Ideal ⟨2, ![R, K]⟩ .f32 → FVec Ideal ⟨2, ![R, K]⟩ .f32)
    (pool : FVec Ideal ⟨2, ![R, K]⟩ .f32 → FVec Ideal ⟨2, ![G, K]⟩ .f32)
    (x : FVec Ideal ⟨2, ![R, K]⟩ .f32)
    (W1l W1r W2l W2r W3l W3r : FVec Ideal ⟨2, ![K, K]⟩ .f32) (b1 b2 b3 : FVec Ideal ⟨1, ![K]⟩ .f32)
    (Wf1 : FVec Ideal ⟨2, ![K, N]⟩ .f32) (bf1 : FVec Ideal ⟨1, ![N]⟩ .f32)
    (Wf2 : FVec Ideal ⟨2, ![N, M]⟩ .f32) (bf2 : FVec Ideal ⟨1, ![M]⟩ .f32) : FVec Ideal ⟨2, ![G, M]⟩ .f32 :=
  head (pool (layerStep agg (layerStep agg (layerStep agg x W1l W1r b1) W2l W2r b2) W3l W3r b3)) Wf1 bf1 Wf2 bf2

end Cert.Sage

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KernelPayload.lean ====
/-
  What one grid point of either pallas_call computes, as one function of its five input blocks, on extended reals.

  A point loads a 4000-row block `a` of the averaged aggregate, the same rows `x` of the features, the two whole
  128 × 128 weight matrices `wl`, `wr` and the bias as a one-row block `b`. A change of float format is the identity on
  extended reals and a product accumulated into zero is the plain sum over the contracted index, so the value stored is
      max (a · wl + x · wr + b) 0,
  entry by entry: the SAGE layer `combine` of the blocks. The second call's body differs from the first's by one more
  re-cast of a block to its own shape.
-/
import proofs.«122597_j26336739459482_1_alg».proof.Proof.Gen.KernelIdeal.Skeleton
import proofs.«122597_j26336739459482_1_alg».proof.Proof.LibSageSpec
import proofs.«122597_j26336739459482_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.Gcn Cert.Sage Cert.GraphConv

/-! ## The product's dimension record: which coordinate of each operand comes from where -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into zero, at an entry: the sum over the 128 contracted positions. -/
theorem product_apply {φ₁ φ₂ : FTy} (l : FVec Ideal S4000x128 φ₁) (r : FVec Ideal S128x128 φ₂) (i : S4000x128.Idx) :
    FloatOps.matmul dot_S4000x128_S128x128_S4000x128_1_0_0_1_n_n none l r (constant (F := Ideal) S4000x128 .f32 0x00000000#32) i
      = ∑ k : Fin 128, l (ix2 (i 0) k) * r (ix2 k (i 1)) :=
  matmul_zero_sum (R := 4000) (K := 128) (N := 128) dot_S4000x128_S128x128_S4000x128_1_0_0_1_n_n none rfl rfl lhs_0 lhs_1 rhs_0 rhs_1 l r i

/-! ## The two bodies -/

/-- The first call's stored value is the layer of its blocks. -/
theorem pay0_eq (x0 x1 : Vec Ideal S4000x128 .f32) (x2 x3 : Vec Ideal S128x128 .f32) (x4 : Vec Ideal S1x128 .f32) :
    k0_pay1 (F := Ideal) x0 x1 x2 x3 x4 = combine (R := 4000) (K := 128) (N := 128) x0 x1 x2 x3 (rowOf x4) := by
  funext j
  obtain ⟨p, q, rfl⟩ : ∃ (p : Fin 4000) (q : Fin 128), j = ix2 p q := ⟨j 0, j 1, eq_ix2 j⟩
  unfold k0_pay1
  rw [combine_ix2, rowOf_ix1, maximumf_apply, addf_apply, addf_apply, broadcast_apply, shapeCast_self, broadcastTo_1b_ab_apply]
  simp only [matmul]
  rw [product_apply, product_apply]
  simp only [truncf_apply, shapeCast_self]
  rfl

/-- The second call's stored value is the layer of its blocks. -/
theorem pay1_eq (x0 x1 : Vec Ideal S4000x128 .f32) (x2 x3 : Vec Ideal S128x128 .f32) (x4 : Vec Ideal S1x128 .f32) :
    k1_pay1 (F := Ideal) x0 x1 x2 x3 x4 = combine (R := 4000) (K := 128) (N := 128) x0 x1 x2 x3 (rowOf x4) := by
  funext j
  obtain ⟨p, q, rfl⟩ : ∃ (p : Fin 4000) (q : Fin 128), j = ix2 p q := ⟨j 0, j 1, eq_ix2 j⟩
  unfold k1_pay1
  rw [combine_ix2, rowOf_ix1, maximumf_apply, addf_apply, addf_apply, broadcast_apply, shapeCast_self, broadcastTo_1b_ab_apply]
  simp only [matmul]
  rw [product_apply, product_apply]
  simp only [truncf_apply, shapeCast_self]
  rfl

end Cert.KernelIdeal.Payload

end
-- ==== Proof.KernelBlocks.lean ====
/-
  From blocks to arrays: what each pallas_call leaves in its output array, as one function of the arrays it finds.

  Each call runs over 25 grid points. At point `t` it reads rows `4000 t … 4000 t + 3999` of the averaged aggregate and
  of the features, the whole weight matrices and the whole bias row, and writes the same rows of its output. A row of
  the layer `relu (A · Wl + X · Wr + b)` depends on the same row of `A` and `X` only, so the block a point writes is that
  block of the layer of the WHOLE arrays; the 25 row blocks tile the 100000 rows; hence the output array ends holding
  the layer everywhere. Stated at any contents `V` of the buffers when the call is entered.
-/
import proofs.«122597_j26336739459482_1_alg».proof.Proof.Gen.KernelIdeal.Frame
import proofs.«122597_j26336739459482_1_alg».proof.Proof.KernelPayload
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payload Cert.Gcn Cert.Sage

variable (V : (c : Dev nD) → (b : Ref sig .tc) → Buf (Elt Ideal) ((c : Thread nD τ).loc b))

/-- Every access of a body is at offset zero. -/
theorem hz : (![0, 0] : Fin 2 → Nat) = fun _ => 0 := funext fun a => by fin_cases a <;> rfl

/-! ## Call 0 -/

section Call0

/-- The printed index maps of call 0, decided over its 25 grid points: the three row-tiled windows (the averaged
    aggregate, the features, the output) are at row block `t`, the weights and the bias at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What call 0's output array ends holding: the layer of the arrays the call finds. -/
abbrev L0 (c : Dev nD) : S100000x128.Idx → Elt Ideal .f32 :=
  combine (R := 100000) (K := 128) (N := 128) (V c main_v24) (V c main_arg0) (V c main_arg2) (V c main_arg4) (rowOf (V c main_v25))

/-- Row `j 0` of the aggregate's block at point `t` is the row of the array that row `j 0` of the output's block is. -/
theorem read0_0 (c : Dev nD) (t : Fin cfg0.N) (j : S4000x128.Idx) (k : Fin 128) :
    iblk0 V c 0 t (ix2 (j 0) k) = V c main_v24 (ix2 ((((cfg0.win 5).blk t).view.emb j) 0) k) := by
  obtain ⟨e00, e01, -, -, -, -, -, -, -, -, e50, e51⟩ := idx_facts0 t
  show V c main_v24 (((cfg0.win 0).blk t).view.emb (ix2 (j 0) k)) = _
  refine congrArg (V c main_v24) (funext fun a => Fin.ext ?_)
  match a with
  | ⟨0, _⟩ => show win0_0.index t (0 : Fin 2) * 4000 + 1 * (j 0).val = win0_5.index t (0 : Fin 2) * 4000 + 1 * (j 0).val; omega
  | ⟨1, _⟩ => show win0_0.index t (1 : Fin 2) * 128 + 1 * k.val = k.val; omega

/-- The same for the features' block. -/
theorem read0_1 (c : Dev nD) (t : Fin cfg0.N) (j : S4000x128.Idx) (k : Fin 128) :
    iblk0 V c 1 t (ix2 (j 0) k) = V c main_arg0 (ix2 ((((cfg0.win 5).blk t).view.emb j) 0) k) := by
  obtain ⟨-, -, e10, e11, -, -, -, -, -, -, e50, e51⟩ := idx_facts0 t
  show V c main_arg0 (((cfg0.win 1).blk t).view.emb (ix2 (j 0) k)) = _
  refine congrArg (V c main_arg0) (funext fun a => Fin.ext ?_)
  match a with
  | ⟨0, _⟩ => show win0_1.index t (0 : Fin 2) * 4000 + 1 * (j 0).val = win0_5.index t (0 : Fin 2) * 4000 + 1 * (j 0).val; omega
  | ⟨1, _⟩ => show win0_1.index t (1 : Fin 2) * 128 + 1 * k.val = k.val; omega

/-- The left weights' one block is the whole matrix. -/
theorem whole0_2 (c : Dev nD) (t : Fin cfg0.N) : iblk0 V c 2 t = V c main_arg2 := by
  obtain ⟨-, -, -, -, e20, e21, -, -, -, -, -, -⟩ := idx_facts0 t
  funext y
  show V c main_arg2 (((cfg0.win 2).blk t).view.emb y) = _
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The right weights' one block is the whole matrix. -/
theorem whole0_3 (c : Dev nD) (t : Fin cfg0.N) : iblk0 V c 3 t = V c main_arg4 := by
  obtain ⟨-, -, -, -, -, -, e30, e31, -, -, -, -⟩ := idx_facts0 t
  funext y
  show V c main_arg4 (((cfg0.win 3).blk t).view.emb y) = _
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias's one block is the whole one-row matrix. -/
theorem whole0_4 (c : Dev nD) (t : Fin cfg0.N) : iblk0 V c 4 t = V c main_v25 := by
  obtain ⟨-, -, -, -, -, -, -, -, e40, e41, -, -⟩ := idx_facts0 t
  funext y
  show V c main_v25 (((cfg0.win 4).blk t).view.emb y) = _
  refine congrArg (V c main_v25) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The output's blocks span all 128 columns: a block's column is the array's column. -/
theorem col0 (t : Fin cfg0.N) (j : S4000x128.Idx) : (j 1).val = ((((cfg0.win 5).blk t).view.emb j) 1).val := by
  obtain ⟨-, -, -, -, -, -, -, -, -, -, e50, e51⟩ := idx_facts0 t
  show (j 1).val = win0_5.index t (1 : Fin 2) * 128 + 1 * (j 1).val
  omega

/-- WHAT POINT `t` WRITES BACK is block `t` of the layer of the arrays the call finds. -/
theorem flushed0_eq (c : Dev nD) (t : Fin cfg0.N) :
    (dat0 V c).flushed 5 t = ((cfg0.win 5).blk t).view.read (Elt Ideal) (L0 V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  rw [pay0_eq]
  funext j
  exact combine_of_rows (V c main_v24) (V c main_arg0) (iblk0 V c 0 t) (iblk0 V c 1 t) (V c main_arg2) (V c main_arg4)
    (iblk0 V c 2 t) (iblk0 V c 3 t) (rowOf (V c main_v25)) (rowOf (iblk0 V c 4 t)) j (((cfg0.win 5).blk t).view.emb j)
    (read0_0 V c t j) (read0_1 V c t j) (whole0_2 V c t) (whole0_3 V c t) (congrArg rowOf (whole0_4 V c t)) (col0 t j)

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v26).slice (win0_5.rect t)).set ↔ _
  rw [View.set_slice_whole, Rect.mem_set_unit]
  exact Iff.rfl

/-- The 25 row blocks tile the 100000 rows: row `r` is in the block of point `r / 4000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 4000, by rw [show cfg0.N = 25 from N_0]; omega⟩
  obtain ⟨-, -, -, -, -, -, -, -, -, -, e50, e51⟩ := idx_facts0 t
  have e50' : win0_5.index t (0 : Fin 2) = (i 0).val / 4000 := e50
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE OUTPUT ARRAY after call 0: the layer of the arrays the call finds, everywhere. -/
theorem final0 (c : Dev nD) : (dat0 V c).arrAt 5 cfg0.N = L0 V c :=
  (dat0 V c).arrAt_eq_of_cover 5 (L0 V c) (fun t _ => flushed0_eq V c t) cover0

end Call0

/-! ## Call 1 -/

section Call1

/-- The printed index maps of call 1, decided over its 25 grid points: the three row-tiled windows (the averaged
    aggregate, the features, the output) are at row block `t`, the weights and the bias at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What call 1's output array ends holding: the layer of the arrays the call finds. -/
abbrev L1 (c : Dev nD) : S100000x128.Idx → Elt Ideal .f32 :=
  combine (R := 100000) (K := 128) (N := 128) (V c main_v39) (V c main_v26) (V c main_arg5) (V c main_arg7) (rowOf (V c main_v40))

/-- Row `j 0` of the aggregate's block at point `t` is the row of the array that row `j 0` of the output's block is. -/
theorem read1_0 (c : Dev nD) (t : Fin cfg1.N) (j : S4000x128.Idx) (k : Fin 128) :
    iblk1 V c 0 t (ix2 (j 0) k) = V c main_v39 (ix2 ((((cfg1.win 5).blk t).view.emb j) 0) k) := by
  obtain ⟨e00, e01, -, -, -, -, -, -, -, -, e50, e51⟩ := idx_facts1 t
  show V c main_v39 (((cfg1.win 0).blk t).view.emb (ix2 (j 0) k)) = _
  refine congrArg (V c main_v39) (funext fun a => Fin.ext ?_)
  match a with
  | ⟨0, _⟩ => show win1_0.index t (0 : Fin 2) * 4000 + 1 * (j 0).val = win1_5.index t (0 : Fin 2) * 4000 + 1 * (j 0).val; omega
  | ⟨1, _⟩ => show win1_0.index t (1 : Fin 2) * 128 + 1 * k.val = k.val; omega

/-- The same for the features' block. -/
theorem read1_1 (c : Dev nD) (t : Fin cfg1.N) (j : S4000x128.Idx) (k : Fin 128) :
    iblk1 V c 1 t (ix2 (j 0) k) = V c main_v26 (ix2 ((((cfg1.win 5).blk t).view.emb j) 0) k) := by
  obtain ⟨-, -, e10, e11, -, -, -, -, -, -, e50, e51⟩ := idx_facts1 t
  show V c main_v26 (((cfg1.win 1).blk t).view.emb (ix2 (j 0) k)) = _
  refine congrArg (V c main_v26) (funext fun a => Fin.ext ?_)
  match a with
  | ⟨0, _⟩ => show win1_1.index t (0 : Fin 2) * 4000 + 1 * (j 0).val = win1_5.index t (0 : Fin 2) * 4000 + 1 * (j 0).val; omega
  | ⟨1, _⟩ => show win1_1.index t (1 : Fin 2) * 128 + 1 * k.val = k.val; omega

/-- The left weights' one block is the whole matrix. -/
theorem whole1_2 (c : Dev nD) (t : Fin cfg1.N) : iblk1 V c 2 t = V c main_arg5 := by
  obtain ⟨-, -, -, -, e20, e21, -, -, -, -, -, -⟩ := idx_facts1 t
  funext y
  show V c main_arg5 (((cfg1.win 2).blk t).view.emb y) = _
  refine congrArg (V c main_arg5) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The right weights' one block is the whole matrix. -/
theorem whole1_3 (c : Dev nD) (t : Fin cfg1.N) : iblk1 V c 3 t = V c main_arg7 := by
  obtain ⟨-, -, -, -, -, -, e30, e31, -, -, -, -⟩ := idx_facts1 t
  funext y
  show V c main_arg7 (((cfg1.win 3).blk t).view.emb y) = _
  refine congrArg (V c main_arg7) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias's one block is the whole one-row matrix. -/
theorem whole1_4 (c : Dev nD) (t : Fin cfg1.N) : iblk1 V c 4 t = V c main_v40 := by
  obtain ⟨-, -, -, -, -, -, -, -, e40, e41, -, -⟩ := idx_facts1 t
  funext y
  show V c main_v40 (((cfg1.win 4).blk t).view.emb y) = _
  refine congrArg (V c main_v40) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The output's blocks span all 128 columns: a block's column is the array's column. -/
theorem col1 (t : Fin cfg1.N) (j : S4000x128.Idx) : (j 1).val = ((((cfg1.win 5).blk t).view.emb j) 1).val := by
  obtain ⟨-, -, -, -, -, -, -, -, -, -, e50, e51⟩ := idx_facts1 t
  show (j 1).val = win1_5.index t (1 : Fin 2) * 128 + 1 * (j 1).val
  omega

/-- WHAT POINT `t` WRITES BACK is block `t` of the layer of the arrays the call finds. -/
theorem flushed1_eq (c : Dev nD) (t : Fin cfg1.N) :
    (dat1 V c).flushed 5 t = ((cfg1.win 5).blk t).view.read (Elt Ideal) (L1 V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  rw [pay1_eq]
  funext j
  exact combine_of_rows (V c main_v39) (V c main_v26) (iblk1 V c 0 t) (iblk1 V c 1 t) (V c main_arg5) (V c main_arg7)
    (iblk1 V c 2 t) (iblk1 V c 3 t) (rowOf (V c main_v40)) (rowOf (iblk1 V c 4 t)) j (((cfg1.win 5).blk t).view.emb j)
    (read1_0 V c t j) (read1_1 V c t j) (whole1_2 V c t) (whole1_3 V c t) (congrArg rowOf (whole1_4 V c t)) (col1 t j)

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v41).slice (win1_5.rect t)).set ↔ _
  rw [View.set_slice_whole, Rect.mem_set_unit]
  exact Iff.rfl

/-- The 25 row blocks tile the 100000 rows: row `r` is in the block of point `r / 4000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 4000, by rw [show cfg1.N = 25 from N_1]; omega⟩
  obtain ⟨-, -, -, -, -, -, -, -, -, -, e50, e51⟩ := idx_facts1 t
  have e50' : win1_5.index t (0 : Fin 2) = (i 0).val / 4000 := e50
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE OUTPUT ARRAY after call 1: the layer of the arrays the call finds, everywhere. -/
theorem final1 (c : Dev nD) : (dat1 V c).arrAt 5 cfg1.N = L1 V c :=
  (dat1 V c).arrAt_eq_of_cover 5 (L1 V c) (fun t _ => flushed1_eq V c t) cover1

end Call1

end Cert.KernelIdeal.Blocks

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«122597_j26336739459482_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.LibSageMean.lean ====
/-
  Mean aggregation in a two-layer SAGE network, on extended reals, generic in the sizes.

  A node's aggregated neighbour features `A[r, ·]` are divided by its clamped in-degree `m r = max (d r) 1`. One program
  divides, `A[r,k] / m r`; the other multiplies by the reciprocal computed once, `A[r,k] * (1 / m r)`. Division on the
  extended reals is `x / y = x * y⁻¹` whenever `y ≠ 0`, and `m r ≥ 1 > 0` whatever `d r` is (an infinity included), so
      x * (1 / m) = x * (1 * m⁻¹) = x * m⁻¹ = x / m
  for every extended real `x`: the two means are one function, with no finiteness assumed of anything.
  The number one is the word `0x3F800000`.

  The host spells the clamp and the column broadcast `m[:, None]` with `maximum` against a broadcast constant and two
  `broadcast_in_dim`s; `meanMul_host` and `meanDiv_host` read those spellings as `meanMul` and `meanDiv`.

  `network` is two layers `h ↦ relu (mean (agg h) · Wl + h · Wr + b)` over one aggregation map `agg`, which stays
  abstract: both programs gather and scatter-add with the same operations, so what it computes is never opened.
-/
import proofs.«122597_j26336739459482_1_alg».proof.Proof.LibSageSpec
import proofs.«122597_j26336739459482_1_alg».proof.Proof.LibDenseOps
import Idealize.ShloMosaic.Lib.Pipeline.Value
import Idealize.ShloMosaic.Lib.ValueIdx

noncomputable section

namespace Cert.SageMean

open Idealize.ShloMosaic Idealize.ShloMosaic.ValueIdx Cert.Gcn Cert.Sage

variable {R K : ℕ}

/-- The aggregate divided, row by row, by the clamped degree. -/
def meanDiv (A : FVec Ideal ⟨2, ![R, K]⟩ .f32) (d : FVec Ideal ⟨1, ![R]⟩ .f32) : FVec Ideal ⟨2, ![R, K]⟩ .f32 :=
  fun i => Ideal.div (A i) (max (d (ix1 (i 0))) (Ideal.ofBits .f32 0x3F800000#32))

/-- The aggregate multiplied, row by row, by the reciprocal of the clamped degree. -/
def meanMul (A : FVec Ideal ⟨2, ![R, K]⟩ .f32) (d : FVec Ideal ⟨1, ![R]⟩ .f32) : FVec Ideal ⟨2, ![R, K]⟩ .f32 :=
  fun i => A i * Ideal.div (Ideal.ofBits .f32 0x3F800000#32) (max (d (ix1 (i 0))) (Ideal.ofBits .f32 0x3F800000#32))

theorem meanDiv_ix2 (A : FVec Ideal ⟨2, ![R, K]⟩ .f32) (d : FVec Ideal ⟨1, ![R]⟩ .f32) (r : Fin R) (k : Fin K) :
    meanDiv A d (ix2 r k) = Ideal.div (A (ix2 r k)) (max (d (ix1 r)) (Ideal.ofBits .f32 0x3F800000#32)) := rfl

theorem meanMul_ix2 (A : FVec Ideal ⟨2, ![R, K]⟩ .f32) (d : FVec Ideal ⟨1, ![R]⟩ .f32) (r : Fin R) (k : Fin K) :
    meanMul A d (ix2 r k)
      = A (ix2 r k) * Ideal.div (Ideal.ofBits .f32 0x3F800000#32) (max (d (ix1 r)) (Ideal.ofBits .f32 0x3F800000#32)) := rfl

/-- Multiplying by the reciprocal of a number that is at least one is dividing by it, for every extended real. -/
theorem mul_recip_clamped (x d : EReal) :
    x * Ideal.div (Ideal.ofBits .f32 0x3F800000#32) (max d (Ideal.ofBits .f32 0x3F800000#32))
      = Ideal.div x (max d (Ideal.ofBits .f32 0x3F800000#32)) := by
  rw [one_word]
  have h : max d (1 : EReal) ≠ 0 := (lt_of_lt_of_le zero_lt_one (le_max_right d 1)).ne'
  rw [Ideal.div, Ideal.div, if_neg h, if_neg h, one_mul]

/-- The two means are one function. -/
theorem meanMul_eq_meanDiv (A : FVec Ideal ⟨2, ![R, K]⟩ .f32) (d : FVec Ideal ⟨1, ![R]⟩ .f32) : meanMul A d = meanDiv A d :=
  funext fun i => mul_recip_clamped (A i) (d (ix1 (i 0)))

/-- A length-`R` vector broadcast along the columns of an `R × K` matrix by two `broadcast_in_dim`s
    (`[R] → [R, 1] → [R, K]`), at entry `(r, k)`: the vector's entry `r`. -/
theorem colBroadcast_host {α : Type} (d : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![R, 1]⟩ (![0] : Fin 1 → Fin 2) h1 d) (ix2 r k) = d (ix1 r) := by
  rw [broadcastInDim_apply (![0, 1] : Fin 2 → Fin 2) h2 _ (ix2 r k) (ix2 r (0 : Fin 1)) (fun a => by
    match a with
    | ⟨0, _⟩ =>
      show r.val = if R = 1 then 0 else r.val
      split
      · have := r.isLt; omega
      · rfl
    | ⟨1, _⟩ => rfl)]
  exact broadcastInDim_apply (![0] : Fin 1 → Fin 2) h1 d (ix2 r (0 : Fin 1)) (ix1 r) (fun a => by
    match a with
    | ⟨0, _⟩ =>
      show r.val = if R = 1 then 0 else r.val
      split
      · have := r.isLt; omega
      · rfl)

/-- A scalar constant broadcast to any shape by the host, at any index: the constant's word. -/
theorem splat_apply {t : Shape} (h : (⟨0, ![]⟩ : Shape).BroadcastsInDim t (![] : Fin 0 → Fin t.rank)) (w : BitVec 32) (i : t.Idx) :
    broadcastInDim t (![] : Fin 0 → Fin t.rank) h (constant (F := Ideal) ⟨0, ![]⟩ .f32 w) i = Ideal.ofBits .f32 w := by
  rw [broadcastInDim_apply (![] : Fin 0 → Fin t.rank) h _ i ix0 (fun a => a.elim0)]
  rfl

/-- The host's `A * (1 / max d 1)[:, None]`, its two ones any vectors that read the word for one everywhere. -/
theorem meanMul_host (A : FVec Ideal ⟨2, ![R, K]⟩ .f32) (d one₁ one₂ : FVec Ideal ⟨1, ![R]⟩ .f32)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2))
    (ho₁ : ∀ j, one₁ j = Ideal.ofBits .f32 0x3F800000#32) (ho₂ : ∀ j, one₂ j = Ideal.ofBits .f32 0x3F800000#32) :
    mulf A (broadcastInDim ⟨2, ![R, K]⟩ (![0, 1] : Fin 2 → Fin 2) h2
        (broadcastInDim ⟨2, ![R, 1]⟩ (![0] : Fin 1 → Fin 2) h1 (Host.divf one₁ (maximumf d one₂))))
      = meanMul A d := by
  funext i
  obtain ⟨r, k, rfl⟩ : ∃ (r : Fin R) (k : Fin K), i = ix2 r k := ⟨i 0, i 1, eq_ix2 i⟩
  rw [meanMul_ix2, mulf_apply, colBroadcast_host]
  show A (ix2 r k) * Ideal.div (one₁ (ix1 r)) (max (d (ix1 r)) (one₂ (ix1 r))) = _
  rw [ho₁, ho₂]

/-- The host's `A / (max d 1)[:, None]`. -/
theorem meanDiv_host (A : FVec Ideal ⟨2, ![R, K]⟩ .f32) (d one₂ : FVec Ideal ⟨1, ![R]⟩ .f32)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2))
    (ho₂ : ∀ j, one₂ j = Ideal.ofBits .f32 0x3F800000#32) :
    Host.divf A (broadcastInDim ⟨2, ![R, K]⟩ (![0, 1] : Fin 2 → Fin 2) h2
        (broadcastInDim ⟨2, ![R, 1]⟩ (![0] : Fin 1 → Fin 2) h1 (maximumf d one₂)))
      = meanDiv A d := by
  funext i
  obtain ⟨r, k, rfl⟩ : ∃ (r : Fin R) (k : Fin K), i = ix2 r k := ⟨i 0, i 1, eq_ix2 i⟩
  rw [meanDiv_ix2]
  show Ideal.div (A (ix2 r k)) (broadcastInDim ⟨2, ![R, K]⟩ (![0, 1] : Fin 2 → Fin 2) h2
        (broadcastInDim ⟨2, ![R, 1]⟩ (![0] : Fin 1 → Fin 2) h1 (maximumf d one₂)) (ix2 r k)) = _
  rw [colBroadcast_host, maximumf_apply, ho₂]

/-- One layer: the features `h`, their aggregate `agg h` averaged by the clamped degrees `d`, combined. -/
def layer (agg : FVec Ideal ⟨2, ![R, K]⟩ .f32 → FVec Ideal ⟨2, ![R, K]⟩ .f32) (d : FVec Ideal ⟨1, ![R]⟩ .f32)
    (h : FVec Ideal ⟨2, ![R, K]⟩ .f32) (Wl Wr : FVec Ideal ⟨2, ![K, K]⟩ .f32) (b : FVec Ideal ⟨1, ![K]⟩ .f32) :
    FVec Ideal ⟨2, ![R, K]⟩ .f32 :=
  combine (meanDiv (agg h) d) h Wl Wr b

/-- The layer with the mean taken by the reciprocal is the same layer. -/
theorem layer_of_meanMul (agg : FVec Ideal ⟨2, ![R, K]⟩ .f32 → FVec Ideal ⟨2, ![R, K]⟩ .f32) (d : FVec Ideal ⟨1, ![R]⟩ .f32)
    (h : FVec Ideal ⟨2, ![R, K]⟩ .f32) (Wl Wr : FVec Ideal ⟨2, ![K, K]⟩ .f32) (b : FVec Ideal ⟨1, ![K]⟩ .f32) :
    combine (meanMul (agg h) d) h Wl Wr b = layer agg d h Wl Wr b := by
  rw [meanMul_eq_meanDiv]; rfl

/-- The two-layer network. -/
def network (agg : FVec Ideal ⟨2, ![R, K]⟩ .f32 → FVec Ideal ⟨2, ![R, K]⟩ .f32) (d : FVec Ideal ⟨1, ![R]⟩ .f32)
    (x : FVec Ideal ⟨2, ![R, K]⟩ .f32) (W1l W1r W2l W2r : FVec Ideal ⟨2, ![K, K]⟩ .f32) (b1 b2 : FVec Ideal ⟨1, ![K]⟩ .f32) :
    FVec Ideal ⟨2, ![R, K]⟩ .f32 :=
  layer agg d (layer agg d x W1l W1r b1) W2l W2r b2

end Cert.SageMean

end
-- ==== Proof.KernelHost.lean ====
/-
  The host side of the idealized kernel: what each pallas_call finds in its input arrays.

  Before the first call the host slices the edge list into source ids `s` and destination ids `d`, counts the in-degrees
  `deg d` (ones scatter-added into zeros at `d`), takes `inv = 1 / max (deg d) 1`, gathers the feature rows at `s`
  (negative ids wrapped) and scatter-adds them at `d` — `agg s d x` — and multiplies row `r` by `inv r`: the first call's
  aggregate input is `meanMul (agg s d x) (deg d)`. Its feature input is `x`, its weights and bias the arguments.
  Between the calls the host does the same to the first call's output `h`, with the same `s`, `d` and `inv`.
  The gather and the scatter-add are never opened: `agg` and `deg` are names for them.
-/
import proofs.«122597_j26336739459482_1_alg».proof.Proof.Gen.KernelIdeal.Frame
import proofs.«122597_j26336739459482_1_alg».proof.Proof.KernelBlocks
import proofs.«122597_j26336739459482_1_alg».proof.Proof.LibSageMean
import Idealize.ShloMosaic.Lib.StableHlo.Run
import Idealize.ShloMosaic.PureOps.Ideal

set_option maxRecDepth 16384

noncomputable section

namespace Cert.KernelIdeal.HostSide

open Idealize.ShloMosaic Idealize.ShloMosaic.TcCoe Idealize.SL.Sem Idealize.ShloMosaic.StableHlo Idealize.ShloMosaic.ValueIdx
open Cert.KernelIdeal Cert.KernelIdeal.Gen Cert.KernelIdeal.Blocks Cert.Gcn Cert.Sage Cert.SageMean

/-! ## The shared host functions, in this program's spelling -/

/-- Row `row` of the edge list as a vector of ids. -/
def idsOf0 (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
def idsOf1 (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The source ids as the gather's start-index column, a negative id wrapped by the number of nodes. -/
def srcCol (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination ids as the scatter's index column. -/
def dstCol (d : (⟨S1600000, .i32⟩ : BufTy).Contents (Elt Ideal)) : (⟨S1600000x1, .i32⟩ : BufTy).Contents (Elt Ideal) :=
  broadcastInDim S1600000x1 ![0] bcast_S1600000_S1600000x1_0 d

/-- Neighbour aggregation: the rows of `X` at the source ids, added up at the destination ids. -/
def agg (s d : (⟨S1600000, .i32⟩ : BufTy).Contents (Elt Ideal)) (X : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (dstCol d)
    (Host.gather gather_S100000x128_S1600000x1_S1600000x128_1_0_n_n_0_1_1128 X (srcCol s))

/-- In-degrees: a one added at each edge's destination. -/
def deg (d : (⟨S1600000, .i32⟩ : BufTy).Contents (Elt Ideal)) : FVec Ideal S100000 .f32 :=
  Host.scatterAdd scatter_S100000_S1600000x1_S1600000_n_0_0_1
    (broadcastInDim S100000 ![] bcast_S_S100000 (constant S_ .f32 0x00000000#32)) (dstCol d)
    (broadcastInDim S1600000 ![] bcast_S_S1600000 (constant S_ .f32 0x3F800000#32))

/-- The reciprocal of the clamped degrees, as the host computes it once. -/
def invDeg (d : (⟨S1600000, .i32⟩ : BufTy).Contents (Elt Ideal)) : FVec Ideal S100000 .f32 :=
  Host.divf (broadcastInDim S100000 ![] bcast_S_S100000 (constant S_ .f32 0x3F800000#32))
    (maximumf (deg d) (broadcastInDim S100000 ![] bcast_S_S100000 (constant S_ .f32 0x3F800000#32)))

/-- An aggregate times the broadcast reciprocal is the mean by the reciprocal. -/
theorem mul_invDeg (A : FVec Ideal S100000x128 .f32) (d : (⟨S1600000, .i32⟩ : BufTy).Contents (Elt Ideal)) :
    mulf A (broadcastInDim S100000x128 ![0, 1] bcast_S100000x1_S100000x128_0_1
        (broadcastInDim S100000x1 ![0] bcast_S100000_S100000x1_0 (invDeg d)))
      = meanMul (R := 100000) (K := 128) A (deg d) :=
  meanMul_host (R := 100000) (K := 128) A (deg d) _ _ bcast_S100000_S100000x1_0 bcast_S100000x1_S100000x128_0_1
    (fun j => splat_apply bcast_S_S100000 _ j) (fun j => splat_apply bcast_S_S100000 _ j)

variable (m : (ℓ : Loc nD τ sig) → Buf (Elt Ideal) ℓ) (ρ : Dev nD → PrngReg)

/-! ## What the first stretch of host operations leaves -/

section Stretch0
variable (c : Dev nD)

theorem W1_src : (W1 m ρ c (Proc.devRef .tc main_v1) : S1600000.Idx → BitVec 32) = idsOf0 (m ((c : Thread nD τ).loc main_arg1)) := by
  dsimp only [W1, hostOps0]; after_results_simp; rfl
theorem W1_dst : (W1 m ρ c (Proc.devRef .tc main_v3) : S1600000.Idx → BitVec 32) = idsOf1 (m ((c : Thread nD τ).loc main_arg1)) := by
  dsimp only [W1, hostOps0]; after_results_simp; rfl
theorem W1_inv : (W1 m ρ c (Proc.devRef .tc main_v11) : S100000.Idx → EReal) = invDeg (idsOf1 (m ((c : Thread nD τ).loc main_arg1))) := by
  dsimp only [W1, hostOps0]; after_results_simp; rfl
theorem W1_mean : (W1 m ρ c (Proc.devRef .tc main_v24) : S100000x128.Idx → EReal)
    = mulf (agg (idsOf0 (m ((c : Thread nD τ).loc main_arg1))) (idsOf1 (m ((c : Thread nD τ).loc main_arg1))) (m ((c : Thread nD τ).loc main_arg0)))
        (broadcastInDim S100000x128 ![0, 1] bcast_S100000x1_S100000x128_0_1
          (broadcastInDim S100000x1 ![0] bcast_S100000_S100000x1_0 (invDeg (idsOf1 (m ((c : Thread nD τ).loc main_arg1)))))) := by
  dsimp only [W1, hostOps0]; after_results_simp; rfl
theorem W1_bias : (W1 m ρ c (Proc.devRef .tc main_v25) : S1x128.Idx → EReal)
    = shapeCast S1x128 (m ((c : Thread nD τ).loc main_arg3)) shapeCasts_S128_S1x128 := by
  dsimp only [W1, hostOps0]; after_results_simp; rfl
theorem W1_arg0 : W1 m ρ c (Proc.devRef .tc main_arg0) = m ((c : Thread nD τ).loc main_arg0) := by
  dsimp only [W1, hostOps0]; after_results_simp
theorem W1_arg2 : W1 m ρ c (Proc.devRef .tc main_arg2) = m ((c : Thread nD τ).loc main_arg2) := by
  dsimp only [W1, hostOps0]; after_results_simp
theorem W1_arg4 : W1 m ρ c (Proc.devRef .tc main_arg4) = m ((c : Thread nD τ).loc main_arg4) := by
  dsimp only [W1, hostOps0]; after_results_simp
theorem W1_arg5 : W1 m ρ c (Proc.devRef .tc main_arg5) = m ((c : Thread nD τ).loc main_arg5) := by
  dsimp only [W1, hostOps0]; after_results_simp
theorem W1_arg6 : W1 m ρ c (Proc.devRef .tc main_arg6) = m ((c : Thread nD τ).loc main_arg6) := by
  dsimp only [W1, hostOps0]; after_results_simp
theorem W1_arg7 : W1 m ρ c (Proc.devRef .tc main_arg7) = m ((c : Thread nD τ).loc main_arg7) := by
  dsimp only [W1, hostOps0]; after_results_simp

end Stretch0

/-! ## After the first call, and what the second stretch leaves -/

section Stretch1
variable (c : Dev nD)

/-- The first layer's output, as a function of the arguments. -/
def hidden : FVec Ideal S100000x128 .f32 :=
  layer (R := 100000) (K := 128)
    (agg (idsOf0 (m ((c : Thread nD τ).loc main_arg1))) (idsOf1 (m ((c : Thread nD τ).loc main_arg1))))
    (deg (idsOf1 (m ((c : Thread nD τ).loc main_arg1))))
    (m ((c : Thread nD τ).loc main_arg0)) (m ((c : Thread nD τ).loc main_arg2)) (m ((c : Thread nD τ).loc main_arg4))
    (m ((c : Thread nD τ).loc main_arg3))

/-- The first call's output array is the first layer of the arguments. -/
theorem W2_out : (W2 m ρ c (Proc.devRef .tc main_v26) : S100000x128.Idx → EReal) = hidden m c := by
  refine (W2_arr m ρ c 5).trans ((final0 (V1 m ρ) c).trans ?_)
  dsimp only [L0, V1]
  rw [W1_mean, W1_arg0, W1_arg2, W1_arg4, W1_bias, mul_invDeg, rowOf_shapeCast]
  exact layer_of_meanMul _ _ _ _ _ _

/-- The first call writes none of these: they are as the first stretch left them. -/
theorem W2_src : (W2 m ρ c (Proc.devRef .tc main_v1) : S1600000.Idx → BitVec 32) = idsOf0 (m ((c : Thread nD τ).loc main_arg1)) :=
  (W2_of_ne m ρ c main_v1 (by decide)).trans (W1_src m ρ c)
theorem W2_dst : (W2 m ρ c (Proc.devRef .tc main_v3) : S1600000.Idx → BitVec 32) = idsOf1 (m ((c : Thread nD τ).loc main_arg1)) :=
  (W2_of_ne m ρ c main_v3 (by decide)).trans (W1_dst m ρ c)
theorem W2_inv : (W2 m ρ c (Proc.devRef .tc main_v11) : S100000.Idx → EReal) = invDeg (idsOf1 (m ((c : Thread nD τ).loc main_arg1))) :=
  (W2_of_ne m ρ c main_v11 (by decide)).trans (W1_inv m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)

theorem W3_mean : (W3 m ρ c (Proc.devRef .tc main_v39) : S100000x128.Idx → EReal)
    = meanMul (R := 100000) (K := 128)
        (agg (idsOf0 (m ((c : Thread nD τ).loc main_arg1))) (idsOf1 (m ((c : Thread nD τ).loc main_arg1))) (hidden m c))
        (deg (idsOf1 (m ((c : Thread nD τ).loc main_arg1)))) := by
  dsimp only [W3, hostOps1]; after_results_simp
  rw [W2_src, W2_dst, W2_inv, W2_out]
  exact mul_invDeg _ _
theorem W3_feat : (W3 m ρ c (Proc.devRef .tc main_v26) : S100000x128.Idx → EReal) = hidden m c := by
  dsimp only [W3, hostOps1]; after_results_simp
  exact W2_out m ρ c
theorem W3_arg5 : W3 m ρ c (Proc.devRef .tc main_arg5) = m ((c : Thread nD τ).loc main_arg5) := by
  dsimp only [W3, hostOps1]; after_results_simp
  exact W2_arg5 m ρ c
theorem W3_arg7 : W3 m ρ c (Proc.devRef .tc main_arg7) = m ((c : Thread nD τ).loc main_arg7) := by
  dsimp only [W3, hostOps1]; after_results_simp
  exact W2_arg7 m ρ c
theorem W3_bias : (W3 m ρ c (Proc.devRef .tc main_v40) : S1x128.Idx → EReal)
    = shapeCast S1x128 (m ((c : Thread nD τ).loc main_arg6)) shapeCasts_S128_S1x128 := by
  dsimp only [W3, hostOps1]; after_results_simp
  rw [W2_arg6]
  rfl

/-- THE RESULT: the second call's output array is the two-layer network of the arguments. -/
theorem W4_out : (W4 m ρ c (Proc.devRef .tc main_v41) : S100000x128.Idx → EReal)
    = network (R := 100000) (K := 128)
        (agg (idsOf0 (m ((c : Thread nD τ).loc main_arg1))) (idsOf1 (m ((c : Thread nD τ).loc main_arg1))))
        (deg (idsOf1 (m ((c : Thread nD τ).loc main_arg1))))
        (m ((c : Thread nD τ).loc main_arg0))
        (m ((c : Thread nD τ).loc main_arg2)) (m ((c : Thread nD τ).loc main_arg4))
        (m ((c : Thread nD τ).loc main_arg5)) (m ((c : Thread nD τ).loc main_arg7))
        (m ((c : Thread nD τ).loc main_arg3)) (m ((c : Thread nD τ).loc main_arg6)) := by
  refine (W4_arr m ρ c 5).trans ((final1 (V3 m ρ) c).trans ?_)
  dsimp only [L1, V3]
  rw [W3_mean, W3_feat, W3_arg5, W3_arg7, W3_bias, rowOf_shapeCast]
  exact layer_of_meanMul _ _ _ _ _ _

end Stretch1

end Cert.KernelIdeal.HostSide

end
-- ==== Proof.RefValue.lean ====
/-
  The idealized reference's result as the two-layer network.

  The reference slices the edge list into source ids `s` and destination ids `d` and applies twice, to the features `x`
  and then to the first layer's output, the layer
      relu ((agg s d h / max (deg d) 1) · Wl + b + h · Wr),
  the division row by row. Read at an entry: the two host products are plain sums over the 128 contracted positions,
  the bias and the degree broadcasts read one entry each, and `(p + b) + q = (p + q) + b` on the extended reals, so a
  layer is `layer (agg s d) (deg d) h Wl Wr b` and the result is `network`. The gather and the scatter-add inside `agg` and
  `deg` are never opened.
-/
import proofs.«122597_j26336739459482_1_alg».proof.Proof.Gen.ReferenceIdeal.Read
import proofs.«122597_j26336739459482_1_alg».proof.Proof.LibSageMean
import proofs.«122597_j26336739459482_1_alg».proof.Proof.LibMatmulSum
import proofs.«122597_j26336739459482_1_alg».proof.Proof.LibDenseOps

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.Gcn Cert.Sage Cert.GraphConv Cert.SageMean

/-! ## The shared host functions, in this program's spelling -/

def idsOf0 (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
def idsOf1 (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The source ids as the gather's start-index column, a negative id wrapped by the number of nodes. -/
def srcCol (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination ids as the scatter's index column. -/
def dstCol (d : (⟨S1600000, .i32⟩ : BufTy).Contents (Elt Ideal)) : (⟨S1600000x1, .i32⟩ : BufTy).Contents (Elt Ideal) :=
  broadcastInDim S1600000x1 ![0] bcast_S1600000_S1600000x1_0 d

/-- Neighbour aggregation: the rows of `X` at the source ids, added up at the destination ids. -/
def agg (s d : (⟨S1600000, .i32⟩ : BufTy).Contents (Elt Ideal)) (X : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (dstCol d)
    (Host.gather gather_S100000x128_S1600000x1_S1600000x128_1_0_n_n_0_1_1128 X (srcCol s))

/-- In-degrees: a one added at each edge's destination. -/
def deg (d : (⟨S1600000, .i32⟩ : BufTy).Contents (Elt Ideal)) : FVec Ideal S100000 .f32 :=
  Host.scatterAdd scatter_S100000_S1600000x1_S1600000_n_0_0_1
    (broadcastInDim S100000 ![] bcast_S_S100000 (constant S_ .f32 0x00000000#32)) (dstCol d)
    (broadcastInDim S1600000 ![] bcast_S_S1600000 (constant S_ .f32 0x3F800000#32))

/-- One layer as the reference spells it. -/
def refLayer (s d : (⟨S1600000, .i32⟩ : BufTy).Contents (Elt Ideal)) (X : FVec Ideal S100000x128 .f32)
    (Wl : FVec Ideal S128x128 .f32) (b : FVec Ideal S128 .f32) (Wr : FVec Ideal S128x128 .f32) : FVec Ideal S100000x128 .f32 :=
  maximumf
    (addf
      (addf
        (Host.dotGeneral dot_S100000x128_S128x128_S100000x128_1_0_0_1_n_n none
          (Host.divf (agg s d X)
            (broadcastInDim S100000x128 ![0, 1] bcast_S100000x1_S100000x128_0_1
              (broadcastInDim S100000x1 ![0] bcast_S100000_S100000x1_0
                (maximumf (deg d) (broadcastInDim S100000 ![] bcast_S_S100000 (constant S_ .f32 0x3F800000#32))))))
          Wl)
        (broadcastInDim S100000x128 ![0, 1] bcast_S1x128_S100000x128_0_1 (broadcastInDim S1x128 ![1] bcast_S128_S1x128_1 b)))
      (Host.dotGeneral dot_S100000x128_S128x128_S100000x128_1_0_0_1_n_n none X Wr))
    (broadcastInDim S100000x128 ![] bcast_S_S100000x128 (constant S_ .f32 0x00000000#32))

/-- A host product of a 100000 × 128 matrix with a 128 × 128 one, at an entry: the sum over the contracted index. -/
theorem product_apply (l : FVec Ideal S100000x128 .f32) (r : FVec Ideal S128x128 .f32) (i : S100000x128.Idx) :
    Host.dotGeneral dot_S100000x128_S128x128_S100000x128_1_0_0_1_n_n none l r i
      = ∑ k : Fin 128, l (ix2 (i 0) k) * r (ix2 k (i 1)) := by
  simp only [Host.dotGeneral]
  exact dotGeneral_sum (R := 100000) (K := 128) (N := 128) dot_S100000x128_S128x128_S100000x128_1_0_0_1_n_n none _ rfl rfl
    Read.lhs_main_v23_0 Read.lhs_main_v23_1 Read.rhs_main_v23_0 Read.rhs_main_v23_1 l r i

/-- The reference's layer is the layer. -/
theorem refLayer_eq (s d : (⟨S1600000, .i32⟩ : BufTy).Contents (Elt Ideal)) (X : FVec Ideal S100000x128 .f32)
    (Wl : FVec Ideal S128x128 .f32) (b : FVec Ideal S128 .f32) (Wr : FVec Ideal S128x128 .f32) :
    refLayer s d X Wl b Wr = layer (R := 100000) (K := 128) (agg s d) (deg d) X Wl Wr b := by
  unfold refLayer
  rw [meanDiv_host (R := 100000) (K := 128) (agg s d X) (deg d) _ bcast_S100000_S100000x1_0 bcast_S100000x1_S100000x128_0_1
    (fun j => splat_apply bcast_S_S100000 _ j)]
  funext i
  obtain ⟨r, k, rfl⟩ : ∃ (r : Fin 100000) (k : Fin 128), i = ix2 r k := ⟨i 0, i 1, eq_ix2 i⟩
  rw [maximumf_apply, addf_apply, addf_apply, product_apply, product_apply,
    rowBroadcast_host (R := 100000) (K := 128) b bcast_S128_S1x128_1 bcast_S1x128_S100000x128_0_1 r k,
    splat_apply bcast_S_S100000x128]
  exact combine_bias_first (R := 100000) (K := 128) (N := 128) (meanDiv (agg s d X) (deg d)) X Wl Wr b r k

variable (m : (ℓ : Loc nD τ sig) → Buf (Elt Ideal) ℓ)

/-- The reference's result is the two-layer network of its arguments. -/
theorem result_eq (c : Dev nD) :
    res_main_v55 (F := Ideal) m c
      = network (R := 100000) (K := 128)
          (agg (idsOf0 (m ((c.tc : Thread nD τ).loc main_arg1))) (idsOf1 (m ((c.tc : Thread nD τ).loc main_arg1))))
          (deg (idsOf1 (m ((c.tc : Thread nD τ).loc main_arg1))))
          (m ((c.tc : Thread nD τ).loc main_arg0))
          (m ((c.tc : Thread nD τ).loc main_arg2)) (m ((c.tc : Thread nD τ).loc main_arg4))
          (m ((c.tc : Thread nD τ).loc main_arg5)) (m ((c.tc : Thread nD τ).loc main_arg7))
          (m ((c.tc : Thread nD τ).loc main_arg3)) (m ((c.tc : Thread nD τ).loc main_arg6)) := by
  have h : res_main_v55 (F := Ideal) m c
      = refLayer (idsOf0 (m ((c.tc : Thread nD τ).loc main_arg1))) (idsOf1 (m ((c.tc : Thread nD τ).loc main_arg1)))
          (refLayer (idsOf0 (m ((c.tc : Thread nD τ).loc main_arg1))) (idsOf1 (m ((c.tc : Thread nD τ).loc main_arg1)))
            (m ((c.tc : Thread nD τ).loc main_arg0)) (m ((c.tc : Thread nD τ).loc main_arg2))
            (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)) := by
    unfold res_main_v55 refLayer agg deg srcCol dstCol idsOf0 idsOf1
    rfl
  rw [h, refLayer_eq, refLayer_eq]
  rfl

end Cert.ReferenceIdeal.RefValue

end
-- ==== Proof.lean ====
/-
  A two-layer SAGE graph network, kernel against reference, on extended reals.

  Both programs compute, twice over (features `x`, then the first layer's output),
      h ↦ relu (mean (agg h) · Wl + h · Wr + b),
  where `agg h` adds up, at each node, the rows of `h` at the sources of its incoming edges, and `mean` divides row `r` by
  `max (deg r) 1`, `deg r` the node's in-degree. They differ in three ways, none of which changes a value:
    * the kernel multiplies by the reciprocal `1 / max (deg r) 1` computed once, the reference divides; since
      `max (deg r) 1 ≥ 1 > 0` these agree for every extended real, an infinity included, so no finiteness is used;
    * the kernel adds the bias last, `(p + q) + b`, the reference in the middle, `(p + b) + q`; addition of extended
      reals is commutative and associative;
    * the kernel computes the two products and the rectifier in two pallas_calls, 25 row blocks of 4000 rows each, with
      the operands narrowed to a shorter float format first; a format change is the identity on extended reals, a row
      of the layer depends on the same row of its inputs only, and the row blocks tile the 100000 rows.
  The gather and the scatter-add are the same operations in both programs and are never opened.

  The kernel's run names its result at the last boundary of buffer contents (KernelRun), which is the network of the
  arguments (KernelBlocks: each call's output array; KernelHost: what each call finds); the reference's generated run
  ends at a term that is the same network (RefValue). The idealization ledger is empty, so the kernel's idealization
  is its own text read on extended reals.
-/
import proofs.«122597_j26336739459482_1_alg».proof.Defs
import proofs.«122597_j26336739459482_1_alg».proof.Proof.Gen.Kernel
import proofs.«122597_j26336739459482_1_alg».proof.Proof.Gen.Kernel.Frame
import proofs.«122597_j26336739459482_1_alg».proof.Proof.Gen.KernelIdeal
import proofs.«122597_j26336739459482_1_alg».proof.Proof.Gen.KernelIdeal.Frame
import proofs.«122597_j26336739459482_1_alg».proof.Proof.Gen.ReferenceIdeal
import proofs.«122597_j26336739459482_1_alg».proof.Proof.Gen.ReferenceIdeal.Run
import proofs.«122597_j26336739459482_1_alg».proof.Proof.Gen.Pre_finite_inputs
import proofs.«122597_j26336739459482_1_alg».proof.Proof.KernelRun
import proofs.«122597_j26336739459482_1_alg».proof.Proof.KernelHost
import proofs.«122597_j26336739459482_1_alg».proof.Proof.RefValue
import Idealize.ShloMosaic.Adequacy
import Idealize.ShloMosaic.Init

noncomputable section

namespace Cert.Proof

open Idealize.ShloMosaic Idealize.ShloMosaic.TcCoe Idealize.SL.Sem Cert.SageMean

/-! ## The two programs name the same host functions -/

theorem ids0_same : Cert.ReferenceIdeal.RefValue.idsOf0 = Cert.KernelIdeal.HostSide.idsOf0 := rfl
theorem ids1_same : Cert.ReferenceIdeal.RefValue.idsOf1 = Cert.KernelIdeal.HostSide.idsOf1 := rfl
theorem agg_same : Cert.ReferenceIdeal.RefValue.agg = Cert.KernelIdeal.HostSide.agg := rfl
theorem deg_same : Cert.ReferenceIdeal.RefValue.deg = Cert.KernelIdeal.HostSide.deg := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- The idealized kernel's run with its result at the network of the arguments. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v41)
        = network (R := 100000) (K := 128)
            (Cert.KernelIdeal.HostSide.agg (Cert.KernelIdeal.HostSide.idsOf0 (m ((c.tc : Thread Cert.KernelIdeal.nD Cert.KernelIdeal.τ).loc Cert.KernelIdeal.main_arg1))) (Cert.KernelIdeal.HostSide.idsOf1 (m ((c.tc : Thread Cert.KernelIdeal.nD Cert.KernelIdeal.τ).loc Cert.KernelIdeal.main_arg1))))
            (Cert.KernelIdeal.HostSide.deg (Cert.KernelIdeal.HostSide.idsOf1 (m ((c.tc : Thread Cert.KernelIdeal.nD Cert.KernelIdeal.τ).loc Cert.KernelIdeal.main_arg1))))
            (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono
    (fun r h c => ⟨(h c).1.trans (Cert.KernelIdeal.HostSide.W4_out m ρ c), (h c).2⟩)
    (Cert.KernelIdeal.RunValue.run_result (F := Ideal) m ρ)

/-- From memories agreeing on the arguments both idealized programs end with the network of the arguments. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.result_eq, h0, h1, h2, h3, h4, h5, h6, h7, ids0_same, ids1_same, agg_same, deg_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
